-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x64 : Shape := ⟨3, ![50000, 1, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x1x64 : S_.BroadcastsInDim S50000x1x64 (![] : Fin 0 → Fin S50000x1x64.rank)
  reducesTo_S50000x1x64_S_d0_1_2 : S50000x1x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S1x128 .f32) (main_arg14 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg13
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S1x128 .f32) (main_arg14 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x64 .f32) (main_arg6 : FVec F S128x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S1x128 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x1x64 .f32) (main_arg1 : IVec S2x800000 32) (main_arg2 : FVec F S800000 .f32) (main_arg3 : FVec F S128x64 .f32) (main_arg4 : FVec F S128 .f32) (main_arg5 : FVec F S128x64 .f32) (main_arg6 : FVec F S128x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S1x128 .f32) (main_arg14 : FVec F S1 .f32) : IVec S_ 1 :=
  let main_v0 : FVec F S50000x1x64 .f32 := Host.absf main_arg0
  let main_cst : FVec F S_ .f32 := constant S_ .f32 0x7F800000#32
  let main_v1 : FVec F S50000x1x64 .f32 := broadcastInDim S50000x1x64 ![] bcast_S_S50000x1x64 main_cst
  let main_v2 : IVec S50000x1x64 1 := cmpf .olt main_v0 main_v1
  let main_c : IVec S_ 1 := constantI S_ 1 1#1
  let main_v3 : IVec S_ 1 := (fun x v => Host.reduce IntOp.andi x v reducesTo_S50000x1x64_S_d0_1_2 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x1x64 : Shape := ⟨3, ![50000, 1, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S128x1 : Shape := ⟨2, ![128, 1]⟩
abbrev S1x1 : Shape := ⟨2, ![1, 1]⟩
abbrev S5000x1 : Shape := ⟨2, ![5000, 1]⟩
abbrev S50000x1x1 : Shape := ⟨3, ![50000, 1, 1]⟩

abbrev nBuf : Space → Nat
  | .hbm => 81
  | .vmem => 24
  | .smem => 0
  | _ => 0

abbrev bufTy : (tb : Table) → Fin (tcTables nBuf tb) → BufTy
  | .hbm, ⟨0, _⟩ => ⟨S50000x1x64, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S64x128, .f32⟩
  | .hbm, ⟨49, _⟩ => ⟨S1x128, .f32⟩
  | .hbm, ⟨50, _⟩ => ⟨S64x128, .f32⟩
  | .hbm, ⟨51, _⟩ => ⟨S128x128, .f32⟩
  | .hbm, ⟨52, _⟩ => ⟨S1x128, .f32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S1x128, .f32⟩
  | .hbm, ⟨74, _⟩ => ⟨S128x128, .f32⟩
  | .hbm, ⟨75, _⟩ => ⟨S128x128, .f32⟩
  | .hbm, ⟨76, _⟩ => ⟨S1x128, .f32⟩
  | .hbm, ⟨77, _⟩ => ⟨S128x1, .f32⟩
  | .hbm, ⟨78, _⟩ => ⟨S1x1, .f32⟩
  | .hbm, ⟨79, _⟩ => ⟨S50000x1, .f32⟩
  | .hbm, ⟨80, _⟩ => ⟨S50000x1x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S50000x1x64_S50000x64 : S50000x1x64.ShapeCasts S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  shapeCasts_S128_S1x128 : S128.ShapeCasts S1x128
  transposes_S128x128_S128x128_1_0 : S128x128.Transposes [1, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S1x128_S128x1_1_0 : S1x128.Transposes [1, 0] S128x1
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S50000x1_S50000x1x1_0_2 : S50000x1.BroadcastsInDim S50000x1x1 (![0, 2] : Fin 2 → Fin S50000x1x1.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S50000x1.size a
  hwx1_9 : ∀ i : grid1.Coords, EltTy.bits .f32 = 32 ∨ (Rect.block (s := S50000x1) S5000x1.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x1x64 : Shape := ⟨3, ![50000, 1, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S64x128 : Shape := ⟨2, ![64, 128]⟩
abbrev S50000x128 : Shape := ⟨2, ![50000, 128]⟩
abbrev S800000x128 : Shape := ⟨2, ![800000, 128]⟩
abbrev S128x1 : Shape := ⟨2, ![128, 1]⟩
abbrev S1x1 : Shape := ⟨2, ![1, 1]⟩
abbrev S50000x1x1 : Shape := ⟨3, ![50000, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x1x64, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x64, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S64x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S64x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S800000x1, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S128x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S128x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S128x1, .f32⟩
  | .hbm, ⟨105, _⟩ => ⟨S50000x1, .f32⟩
  | .hbm, ⟨106, _⟩ => ⟨S1x1, .f32⟩
  | .hbm, ⟨107, _⟩ => ⟨S50000x1, .f32⟩
  | .hbm, ⟨108, _⟩ => ⟨S50000x1, .f32⟩
  | .hbm, ⟨109, _⟩ => ⟨S50000x1x1, .f32⟩
  | _, _ => ⟨S50000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_cst : Ref sig .tc := ⟨.hbm, 64, rfl⟩
abbrev main_call1_v0 : Ref sig .tc := ⟨.hbm, 65, rfl⟩
abbrev main_v41 : Ref sig .tc := ⟨.hbm, 66, rfl⟩
abbrev main_v42 : Ref sig .tc := ⟨.hbm, 67, rfl⟩
abbrev main_c_4 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call3_cst : Ref sig .tc := ⟨.hbm, 101, rfl⟩
abbrev main_call3_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S50000x1x64_S50000x64 : S50000x1x64.ShapeCasts S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S50000x1_S50000x1x1_0_2 : S50000x1.BroadcastsInDim S50000x1x1 (![0, 2] : Fin 2 → Fin S50000x1x1.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The kernel program's run, with its result array named.

  The program is five stretches in order: host operations, the first row-tiled call, host operations, the second
  row-tiled call, one last host operation.  The buffers' contents at each boundary are a fold from the launch memory:
  after a host stretch every buffer holds what the stretch's operations leave, after a call each of the call's arrays
  holds what its write-backs leave and every other buffer what it held before.  Every weakly fair execution terminates
  without a fault in a state whose unscoped buffers hold the last boundary's contents; read at the result buffer that is
  the statement below, and read at an argument buffer it is the launch contents, since nothing writes an argument.
-/
import proofs.«112780_j37958920962331_1_alg».proof.Proof.Patched.KernelIdeal.Frame

set_option maxRecDepth 16384

noncomputable section

namespace Cert.KernelIdeal.ResultRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as
    launched. -/
theorem run : θ_run defs (onTc (τ := τ) (main (F := F))) ⟨m, fun _ => 0, ρ⟩ (fun r => ∀ c : Dev nD,
      r.2.mem ((c.tc : Thread nD τ).loc main_v56) = W5 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v56 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.ResultRun

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LayerSpec.lean ====
/-
  One graph-convolution layer with its readout, and the prediction head, over the extended reals, entry by entry.
  Independent of any program.

  With an aggregated neighbourhood array `a` and a node array `x`, both [n, k], weights `wl`, `wr` stored [k, o]
  (already transposed for a product from the left), a bias row `bl` [1, o], the convolution's unit `j` of node `p` is

      conv (p, j) = max (((∑ i, a (p, i) · wl (i, j)) + bl (0, j)) + ∑ i, x (p, i) · wr (i, j)) 0,

  associated as the operations are applied: first product, bias, second product.  The readout is one more product
  with a bias and a maximum with zero,

      hidden (p, q) = max ((∑ j, conv (p, j) · wo (j, q)) + bo (0, q)) 0,

  and the prediction head one product with a bias, no maximum:

      score p = (∑ j, hidden (p, j) · wp (j, 0)) + bp (0, 0).

  Every entry of row `p` depends on row `p` of `a` and of `x` only.  So a block of rows computed from the same rows
  of the two arrays is that block of rows of the whole array's result (`hiddenAt_rows`, `scoreAt_rows`): this is what
  lets a grid of row tiles be read as one whole-array function.  Zero is kept as the f32 word of zero; it is the same
  word wherever it occurs and is never evaluated.
-/
import Idealize.ShloMosaic.Lib.ValueIdx
import Idealize.ShloMosaic.PureOps.Ideal

noncomputable section

namespace Cert.LayerSpec

open Idealize.ShloMosaic Idealize.ShloMosaic.ValueIdx

/-- An [a, b] array of extended reals. -/
abbrev Mat (a b : Nat) : Type := (⟨2, ![a, b]⟩ : Shape).Idx → EReal

/-- The f32 word of zero, read as an extended real. -/
abbrev zeroWord : EReal := Ideal.ofBits .f32 0x00000000#32

/-- Unit `j` of node `p` after the convolution and its maximum with zero. -/
def convAt {n k o : Nat} (a x : Mat n k) (wl wr : Mat k o) (bl : Mat 1 o) (p : Fin n) (j : Fin o) : EReal :=
  max (((∑ i : Fin k, a (ix2 p i) * wl (ix2 i j)) + bl (ix2 (0 : Fin 1) j)) + ∑ i : Fin k, x (ix2 p i) * wr (ix2 i j))
    zeroWord

/-- Unit `q` of node `p` after the readout of a hidden row `h p`. -/
def readoutAt {n o : Nat} (h : Fin n → Fin o → EReal) (wo : Mat o o) (bo : Mat 1 o) (p : Fin n) (q : Fin o) : EReal :=
  max ((∑ j : Fin o, h p j * wo (ix2 j q)) + bo (ix2 (0 : Fin 1) q)) zeroWord

/-- Convolution then readout, at (p, q). -/
def hiddenAt {n k o : Nat} (a x : Mat n k) (wl wr : Mat k o) (bl : Mat 1 o) (wo : Mat o o) (bo : Mat 1 o)
    (p : Fin n) (q : Fin o) : EReal :=
  readoutAt (convAt a x wl wr bl) wo bo p q

/-- Convolution then readout, as a whole [n, o] array. -/
def hidden {n k o : Nat} (a x : Mat n k) (wl wr : Mat k o) (bl : Mat 1 o) (wo : Mat o o) (bo : Mat 1 o) : Mat n o :=
  fun i => hiddenAt a x wl wr bl wo bo (i 0) (i 1)

/-- Convolution, readout and the prediction head, at node `p`. -/
def scoreAt {n k o : Nat} (a x : Mat n k) (wl wr : Mat k o) (bl : Mat 1 o) (wo : Mat o o) (bo : Mat 1 o)
    (wp : Mat o 1) (bp : Mat 1 1) (p : Fin n) : EReal :=
  (∑ j : Fin o, hiddenAt a x wl wr bl wo bo p j * wp (ix2 j (0 : Fin 1))) + bp (ix2 (0 : Fin 1) (0 : Fin 1))

/-- Convolution, readout and the prediction head, as a whole [n, 1] array. -/
def score {n k o : Nat} (a x : Mat n k) (wl wr : Mat k o) (bl : Mat 1 o) (wo : Mat o o) (bo : Mat 1 o)
    (wp : Mat o 1) (bp : Mat 1 1) : Mat n 1 :=
  fun i => scoreAt a x wl wr bl wo bo wp bp (i 0)

theorem hidden_apply {n k o : Nat} (a x : Mat n k) (wl wr : Mat k o) (bl : Mat 1 o) (wo : Mat o o) (bo : Mat 1 o)
    (p : Fin n) (q : Fin o) : hidden a x wl wr bl wo bo (ix2 p q) = hiddenAt a x wl wr bl wo bo p q := rfl

theorem score_apply {n k o : Nat} (a x : Mat n k) (wl wr : Mat k o) (bl : Mat 1 o) (wo : Mat o o) (bo : Mat 1 o)
    (wp : Mat o 1) (bp : Mat 1 1) (p : Fin n) (z : Fin 1) :
    score a x wl wr bl wo bo wp bp (ix2 p z) = scoreAt a x wl wr bl wo bo wp bp p := rfl

/-- ROW LOCALITY of the convolution: rows `p` of (a, x) and `p'` of (a', x') equal entry by entry give equal units. -/
theorem convAt_rows {n n' k o : Nat} (a x : Mat n k) (a' x' : Mat n' k) (wl wr : Mat k o) (bl : Mat 1 o)
    (p : Fin n) (p' : Fin n') (ha : ∀ i : Fin k, a (ix2 p i) = a' (ix2 p' i))
    (hx : ∀ i : Fin k, x (ix2 p i) = x' (ix2 p' i)) (j : Fin o) :
    convAt a x wl wr bl p j = convAt a' x' wl wr bl p' j := by
  unfold convAt
  simp only [ha, hx]

/-- ROW LOCALITY of convolution and readout. -/
theorem hiddenAt_rows {n n' k o : Nat} (a x : Mat n k) (a' x' : Mat n' k) (wl wr : Mat k o) (bl : Mat 1 o)
    (wo : Mat o o) (bo : Mat 1 o) (p : Fin n) (p' : Fin n') (ha : ∀ i : Fin k, a (ix2 p i) = a' (ix2 p' i))
    (hx : ∀ i : Fin k, x (ix2 p i) = x' (ix2 p' i)) (q : Fin o) :
    hiddenAt a x wl wr bl wo bo p q = hiddenAt a' x' wl wr bl wo bo p' q := by
  unfold hiddenAt readoutAt
  simp only [convAt_rows a x a' x' wl wr bl p p' ha hx]

/-- ROW LOCALITY of the whole chain down to the score. -/
theorem scoreAt_rows {n n' k o : Nat} (a x : Mat n k) (a' x' : Mat n' k) (wl wr : Mat k o) (bl : Mat 1 o)
    (wo : Mat o o) (bo : Mat 1 o) (wp : Mat o 1) (bp : Mat 1 1) (p : Fin n) (p' : Fin n')
    (ha : ∀ i : Fin k, a (ix2 p i) = a' (ix2 p' i)) (hx : ∀ i : Fin k, x (ix2 p i) = x' (ix2 p' i)) :
    scoreAt a x wl wr bl wo bo wp bp p = scoreAt a' x' wl wr bl wo bo wp bp p' := by
  unfold scoreAt
  simp only [hiddenAt_rows a x a' x' wl wr bl wo bo p p' ha hx]

end Cert.LayerSpec

end
-- ==== Proof.TileBody.lean ====
/-
  What one row tile computes, entry by entry.

  First call: from a tile's 5000 rows of the aggregated array and of the node array, and the whole (already transposed)
  weights and bias rows, the stored tile is convolution then readout of those rows (`LayerSpec.hiddenAt`).  Second call:
  the same chain on 128 input features, followed by the prediction head, one column (`LayerSpec.scoreAt`).

  Each product is a contraction of the left operand's second axis with the right operand's first into a zero
  accumulator, so at (p, q) it is the sum over the shared axis of left (p, k) · right (k, q).  A change of float format
  on the way into a product is the identity on extended reals, a shape cast to the same shape is the identity, a row
  [1, b] broadcast down the rows reads its one row, and the maximum with the splat of zero is the maximum with zero.
-/
import proofs.«112780_j37958920962331_1_alg».proof.Proof.Gen.KernelIdeal.Skeleton
import proofs.«112780_j37958920962331_1_alg».proof.Proof.LibPlainDot
import proofs.«112780_j37958920962331_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileBody

open Cert.KernelIdeal Cert.KernelIdeal.Gen Idealize.ShloMosaic Idealize.ShloMosaic.ValueIdx Cert.LayerSpec

/-- The three contractions of the two bodies are plain matrix products: their dimension records are the plain
    product's, field by field (the well-formedness facts restated at the literal dimension lists). -/
theorem wf64 : DotDims.WF ⟨2, ![5000, 64]⟩ ⟨2, ![64, 128]⟩ ⟨2, ![5000, 128]⟩ [1] [0] [0] [1] [] [] :=
  dot_S5000x64_S64x128_S5000x128_1_0_0_1_n_n.wf
theorem wf128 : DotDims.WF ⟨2, ![5000, 128]⟩ ⟨2, ![128, 128]⟩ ⟨2, ![5000, 128]⟩ [1] [0] [0] [1] [] [] :=
  dot_S5000x128_S128x128_S5000x128_1_0_0_1_n_n.wf
theorem wfHead : DotDims.WF ⟨2, ![5000, 128]⟩ ⟨2, ![128, 1]⟩ ⟨2, ![5000, 1]⟩ [1] [0] [0] [1] [] [] :=
  dot_S5000x128_S128x1_S5000x1_1_0_0_1_n_n.wf
theorem dot64_eq : dot_S5000x64_S64x128_S5000x128_1_0_0_1_n_n = Cert.Lib.plainDot 5000 64 128 wf64 := rfl
theorem dot128_eq : dot_S5000x128_S128x128_S5000x128_1_0_0_1_n_n = Cert.Lib.plainDot 5000 128 128 wf128 := rfl
theorem dotHead_eq : dot_S5000x128_S128x1_S5000x1_1_0_0_1_n_n = Cert.Lib.plainDot 5000 128 1 wfHead := rfl

/-- The first call's stored tile at (p, q): convolution then readout of row p of the two input tiles. -/
theorem conv_tile (a x : Vec Ideal S5000x64 .f32) (wl wr : Vec Ideal S64x128 .f32) (bl : Vec Ideal S1x128 .f32)
    (wo : Vec Ideal S128x128 .f32) (bo : Vec Ideal S1x128 .f32) (p : Fin 5000) (q : Fin 128) :
    k0_pay1 (F := Ideal) a x wl wr bl wo bo (ix2 p q) = hiddenAt a x wl wr bl wo bo p q := by
  unfold k0_pay1 hiddenAt readoutAt convAt
  simp only [matmul, shapeCast_self, dot64_eq, dot128_eq, maximumf_apply, addf_apply, broadcast_apply, truncf_apply,
    Cert.Lib.matmul_zero_apply, broadcastTo_1b_ab_apply]
  rfl

/-- The second call's stored tile at (p, 0): convolution, readout and the prediction head of row p. -/
theorem head_tile (a x : Vec Ideal S5000x128 .f32) (wl wr : Vec Ideal S128x128 .f32) (bl : Vec Ideal S1x128 .f32)
    (wo : Vec Ideal S128x128 .f32) (bo : Vec Ideal S1x128 .f32) (wp : Vec Ideal S128x1 .f32)
    (bp : Vec Ideal S1x1 .f32) (p : Fin 5000) :
    k1_pay1 (F := Ideal) (k1_pay2 a x wl wr bl wo bo wp) bp (ix2 p (0 : Fin 1))
      = scoreAt a x wl wr bl wo bo wp bp p := by
  unfold k1_pay1 k1_pay2 scoreAt hiddenAt readoutAt convAt
  simp only [matmul, shapeCast_self, dot128_eq, dotHead_eq, maximumf_apply, addf_apply, broadcast_apply, truncf_apply,
    Cert.Lib.matmul_zero_apply, broadcastTo_1b_ab_apply]
  rfl

end Cert.KernelIdeal.TileBody

end
-- ==== Proof.ConvTiles.lean ====
/-
  The first call's output array, as one function of the arrays the call is entered with.

  The grid has ten points; at point t the aggregated array's and the node array's windows hold rows 5000·t … 5000·t+4999
  (all 64 columns), the output's window the same rows (all 128 columns), and each weight's and bias row's window the
  whole array.  The body stores convolution-then-readout of its tile's rows, and every entry of that depends on its own
  row only, so what point t writes back is rows 5000·t … of `LayerSpec.hidden` of the WHOLE arrays.  The ten row tiles
  cover the 50000 rows (row r is in tile r / 5000), hence the array ends holding `hidden` of the entry arrays.
-/
import proofs.«112780_j37958920962331_1_alg».proof.Proof.Patched.KernelIdeal.Frame
import proofs.«112780_j37958920962331_1_alg».proof.Proof.TileBody
import proofs.«112780_j37958920962331_1_alg».proof.Proof.LayerSpec
import Idealize.ShloMosaic.Lib.Pipeline.Value
import Idealize.ShloMosaic.Lib.ValueIdx

set_option maxRecDepth 16384

noncomputable section

namespace Cert.KernelIdeal.ConvTiles

open Cert.KernelIdeal Cert.KernelIdeal.Gen Cert.KernelIdeal.GenP Idealize.ShloMosaic Idealize.ShloMosaic.TcCoe Idealize.ShloMosaic.ValueIdx
open Idealize.SL.Sem Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- A stored tile entry against the whole arrays: when the tile's row `y 0` of the two inputs is row `i 0` of the whole
    arrays, the weights and bias rows are the whole ones, and the columns agree, the body's entry at `y` is
    `hidden` of the whole arrays at `i`. -/
theorem tile_entry (A X : Mat 50000 64) (WL WR : Mat 64 128) (BL : Mat 1 128) (WO : Mat 128 128) (BO : Mat 1 128)
    (a x : Vec Ideal S5000x64 .f32) (wl wr : Vec Ideal S64x128 .f32) (bl : Vec Ideal S1x128 .f32)
    (wo : Vec Ideal S128x128 .f32) (bo : Vec Ideal S1x128 .f32) (y : S5000x128.Idx) (i : S50000x128.Idx)
    (ha : ∀ k : Fin 64, a (ix2 (y 0) k) = A (ix2 (i 0) k)) (hx : ∀ k : Fin 64, x (ix2 (y 0) k) = X (ix2 (i 0) k))
    (hwl : wl = WL) (hwr : wr = WR) (hbl : bl = BL) (hwo : wo = WO) (hbo : bo = BO) (hq : (y 1).val = (i 1).val) :
    k0_pay1 (F := Ideal) a x wl wr bl wo bo y = hidden A X WL WR BL WO BO i := by
  subst hwl hwr hbl hwo hbo
  have hq' : (y 1 : Fin 128) = (i 1 : Fin 128) := Fin.ext hq
  refine (congrArg (k0_pay1 (F := Ideal) a x wl wr bl wo bo) (eq_ix2 y)).trans ?_
  refine (TileBody.conv_tile a x wl wr bl wo bo (y 0) (y 1)).trans ?_
  show hiddenAt a x wl wr bl wo bo (y 0) (y 1) = hiddenAt A X wl wr bl wo bo (i 0) (i 1)
  rw [hq']
  exact hiddenAt_rows a x A X wl wr bl wo bo (y 0) (i 0) ha hx (i 1)

/-- The printed index maps over the grid: the row-tiled windows start at row block t, the others at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A whole-array window's block is the array. -/
theorem wl_block (c : Dev nD) (t : Fin cfg0.N) : iblk0 V c 2 t = V c main_v27 := by
  obtain ⟨-, -, -, -, e0, e1, -⟩ := index_facts t
  funext y
  show V c main_v27 (((cfg0.win 2).blk t).view.emb y) = V c main_v27 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem bl_block (c : Dev nD) (t : Fin cfg0.N) : iblk0 V c 3 t = V c main_v28 := by
  obtain ⟨-, -, -, -, -, -, e0, e1, -⟩ := index_facts t
  funext y
  show V c main_v28 (((cfg0.win 3).blk t).view.emb y) = V c main_v28 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem wr_block (c : Dev nD) (t : Fin cfg0.N) : iblk0 V c 4 t = V c main_v29 := by
  obtain ⟨-, -, -, -, -, -, -, -, e0, e1, -⟩ := index_facts t
  funext y
  show V c main_v29 (((cfg0.win 4).blk t).view.emb y) = V c main_v29 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

theorem wo_block (c : Dev nD) (t : Fin cfg0.N) : iblk0 V c 5 t = V c main_v30 := by
  obtain ⟨-, -, -, -, -, -, -, -, -, -, e0, e1, -⟩ := index_facts t
  funext y
  show V c main_v30 (((cfg0.win 5).blk t).view.emb y) = V c main_v30 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem bo_block (c : Dev nD) (t : Fin cfg0.N) : iblk0 V c 6 t = V c main_v31 := by
  obtain ⟨-, -, -, -, -, -, -, -, -, -, -, -, e0, e1, -⟩ := index_facts t
  funext y
  show V c main_v31 (((cfg0.win 6).blk t).view.emb y) = V c main_v31 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT t WRITES BACK is rows 5000·t … of `hidden` of the entry arrays. -/
theorem flushed_eq (c : Dev nD) (t : Fin cfg0.N) :
    (dat0 V c).flushed 7 t = ((cfg0.win 7).blk t).view.read (Elt Ideal)
      (hidden (V c main_v26) (V c main_v11) (V c main_v27) (V c main_v29) (V c main_v28) (V c main_v30) (V c main_v31)) := by
  show (cfg0.win 7).cut (grid0.coords t) ((dat0 V c).after 7 t) = _
  rw [after0_7]
  unfold out0_7
  rw [View.canon_unit_zero origin]
  simp only [View.ld_unit_zero (S := S5000x64) origin, View.ld_unit_zero (S := S64x128) origin,
    View.ld_unit_zero (S := S1x128) origin, View.ld_unit_zero (S := S128x128) origin]
  obtain ⟨a0, a1, x0, x1, -, -, -, -, -, -, -, -, -, -, o0, o1⟩ := index_facts t
  funext j
  refine tile_entry (V c main_v26) (V c main_v11) (V c main_v27) (V c main_v29) (V c main_v28) (V c main_v30) (V c main_v31)
    (iblk0 V c 0 t) (iblk0 V c 1 t) (iblk0 V c 2 t) (iblk0 V c 4 t) (iblk0 V c 3 t) (iblk0 V c 5 t) (iblk0 V c 6 t)
    j (((cfg0.win 7).blk t).view.emb j) ?_ ?_ (wl_block V c t) (wr_block V c t) (bl_block V c t) (wo_block V c t) (bo_block V c t) ?_
  · intro k
    show V c main_v26 (((cfg0.win 0).blk t).view.emb (ix2 (j 0) k)) = V c main_v26 (ix2 ((((cfg0.win 7).blk t).view.emb j) 0) k)
    refine congrArg _ (funext fun a => Fin.ext ?_)
    match a with
    | ⟨0, _⟩ => show win0_0.index t (0 : Fin 2) * 5000 + 1 * (j 0).val = win0_7.index t (0 : Fin 2) * 5000 + 1 * (j 0).val; omega
    | ⟨1, _⟩ => show win0_0.index t (1 : Fin 2) * 64 + 1 * k.val = k.val; omega
  · intro k
    show V c main_v11 (((cfg0.win 1).blk t).view.emb (ix2 (j 0) k)) = V c main_v11 (ix2 ((((cfg0.win 7).blk t).view.emb j) 0) k)
    refine congrArg _ (funext fun a => Fin.ext ?_)
    match a with
    | ⟨0, _⟩ => show win0_1.index t (0 : Fin 2) * 5000 + 1 * (j 0).val = win0_7.index t (0 : Fin 2) * 5000 + 1 * (j 0).val; omega
    | ⟨1, _⟩ => show win0_1.index t (1 : Fin 2) * 64 + 1 * k.val = k.val; omega
  · show (j 1).val = win0_7.index t (1 : Fin 2) * 128 + 1 * (j 1).val
    omega

/-- An index of the output array is in point t's block iff each coordinate is in the block's range on its axis. -/
theorem mem_tile (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v32).slice (win0_7.rect t)).set ↔ _
  rw [View.set_slice_whole, Rect.mem_set_unit]
  exact Iff.rfl

/-- Every block index of the output is some point's. -/
theorem tile_onto : ∀ q0 : Fin 10, ∃ t : Fin cfg0.N, win0_7.index t = ![q0.val, 0] :=
  (by decide +kernel : ∀ q0 : Fin 10, ∃ t : Fin grid0.N, win0_7.index t = ![q0.val, 0])

/-- The ten row tiles cover the array: row r lies in tile r / 5000. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := tile_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_tile]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE OUTPUT ARRAY after the call: `hidden` of the arrays the call is entered with. -/
theorem final (c : Dev nD) :
    (dat0 V c).arrAt 7 cfg0.N
      = hidden (V c main_v26) (V c main_v11) (V c main_v27) (V c main_v29) (V c main_v28) (V c main_v30) (V c main_v31) :=
  (dat0 V c).arrAt_eq_of_cover 7 _ (fun t _ => flushed_eq V c t) covered

end Cert.KernelIdeal.ConvTiles

end
-- ==== Proof.HeadTiles.lean ====
/-
  The second call's output array, as one function of the arrays the call is entered with.

  Ten grid points again; at point t the aggregated array's and the hidden array's windows hold rows 5000·t … 5000·t+4999
  (all 128 columns), the output's window the same rows of its one column, and every weight's and bias's window the whole
  array.  The body stores convolution, readout and prediction head of its tile's rows; each entry depends on its own row
  only, so point t writes back rows 5000·t … of `LayerSpec.score` of the WHOLE arrays, and the ten tiles cover the
  50000 rows.
-/
import proofs.«112780_j37958920962331_1_alg».proof.Proof.Patched.KernelIdeal.Frame
import proofs.«112780_j37958920962331_1_alg».proof.Proof.TileBody
import proofs.«112780_j37958920962331_1_alg».proof.Proof.LayerSpec
import Idealize.ShloMosaic.Lib.Pipeline.Value
import Idealize.ShloMosaic.Lib.ValueIdx

set_option maxRecDepth 16384

noncomputable section

namespace Cert.KernelIdeal.HeadTiles

open Cert.KernelIdeal Cert.KernelIdeal.Gen Cert.KernelIdeal.GenP Idealize.ShloMosaic Idealize.ShloMosaic.TcCoe Idealize.ShloMosaic.ValueIdx
open Idealize.SL.Sem Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- A stored tile entry against the whole arrays: when the tile's row `y 0` of the two inputs is row `i 0` of the whole
    arrays and the weights and biases are the whole ones, the body's entry at `y` is `score` of the whole arrays at `i`. -/
theorem tile_entry (A X : Mat 50000 128) (WL WR : Mat 128 128) (BL : Mat 1 128) (WO : Mat 128 128) (BO : Mat 1 128)
    (WP : Mat 128 1) (BP : Mat 1 1)
    (a x : Vec Ideal S5000x128 .f32) (wl wr : Vec Ideal S128x128 .f32) (bl : Vec Ideal S1x128 .f32)
    (wo : Vec Ideal S128x128 .f32) (bo : Vec Ideal S1x128 .f32) (wp : Vec Ideal S128x1 .f32) (bp : Vec Ideal S1x1 .f32)
    (y : S5000x1.Idx) (i : S50000x1.Idx)
    (ha : ∀ k : Fin 128, a (ix2 (y 0) k) = A (ix2 (i 0) k)) (hx : ∀ k : Fin 128, x (ix2 (y 0) k) = X (ix2 (i 0) k))
    (hwl : wl = WL) (hwr : wr = WR) (hbl : bl = BL) (hwo : wo = WO) (hbo : bo = BO) (hwp : wp = WP) (hbp : bp = BP) :
    k1_pay1 (F := Ideal) (k1_pay2 a x wl wr bl wo bo wp) bp y = score A X WL WR BL WO BO WP BP i := by
  subst hwl hwr hbl hwo hbo hwp hbp
  have hlt : (y 1).val < 1 := (y 1).isLt
  have h1 : (⟨(y 1).val, hlt⟩ : Fin 1) = (0 : Fin 1) := Fin.ext (by show (y 1).val = 0; omega)
  have hy : y = ix2 (y 0) (0 : Fin 1) := (eq_ix2 y).trans (congrArg (ix2 (y 0)) h1)
  refine (congrArg (k1_pay1 (F := Ideal) (k1_pay2 a x wl wr bl wo bo wp) bp) hy).trans ?_
  refine (TileBody.head_tile a x wl wr bl wo bo wp bp (y 0)).trans ?_
  show scoreAt a x wl wr bl wo bo wp bp (y 0) = scoreAt A X wl wr bl wo bo wp bp (i 0)
  exact scoreAt_rows a x A X wl wr bl wo bo wp bp (y 0) (i 0) ha hx

/-- The printed index maps over the grid: the row-tiled windows start at row block t, the others at the origin. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- A whole-array window's block is the array. -/
theorem wl_block (c : Dev nD) (t : Fin cfg1.N) : iblk1 V c 2 t = V c main_v48 := by
  obtain ⟨-, -, -, -, e0, e1, -⟩ := index_facts t
  funext y
  show V c main_v48 (((cfg1.win 2).blk t).view.emb y) = V c main_v48 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem bl_block (c : Dev nD) (t : Fin cfg1.N) : iblk1 V c 3 t = V c main_v49 := by
  obtain ⟨-, -, -, -, -, -, e0, e1, -⟩ := index_facts t
  funext y
  show V c main_v49 (((cfg1.win 3).blk t).view.emb y) = V c main_v49 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem wr_block (c : Dev nD) (t : Fin cfg1.N) : iblk1 V c 4 t = V c main_v50 := by
  obtain ⟨-, -, -, -, -, -, -, -, e0, e1, -⟩ := index_facts t
  funext y
  show V c main_v50 (((cfg1.win 4).blk t).view.emb y) = V c main_v50 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem wo_block (c : Dev nD) (t : Fin cfg1.N) : iblk1 V c 5 t = V c main_v51 := by
  obtain ⟨-, -, -, -, -, -, -, -, -, -, e0, e1, -⟩ := index_facts t
  funext y
  show V c main_v51 (((cfg1.win 5).blk t).view.emb y) = V c main_v51 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem bo_block (c : Dev nD) (t : Fin cfg1.N) : iblk1 V c 6 t = V c main_v52 := by
  obtain ⟨-, -, -, -, -, -, -, -, -, -, -, -, e0, e1, -⟩ := index_facts t
  funext y
  show V c main_v52 (((cfg1.win 6).blk t).view.emb y) = V c main_v52 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem wp_block (c : Dev nD) (t : Fin cfg1.N) : iblk1 V c 7 t = V c main_v53 := by
  obtain ⟨-, -, -, -, -, -, -, -, -, -, -, -, -, -, e0, e1, -⟩ := index_facts t
  funext y
  show V c main_v53 (((cfg1.win 7).blk t).view.emb y) = V c main_v53 y
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 1 + 1 * (y 1).val = (y 1).val; omega

theorem bp_block (c : Dev nD) (t : Fin cfg1.N) : iblk1 V c 8 t = V c main_v54 := by
  obtain ⟨-, -, -, -, -, -, -, -, -, -, -, -, -, -, -, -, e0, e1, -⟩ := index_facts t
  funext y
  show V c main_v54 (((cfg1.win 8).blk t).view.emb y) = V c main_v54 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- WHAT POINT t WRITES BACK is rows 5000·t … of `score` of the entry arrays. -/
theorem flushed_eq (c : Dev nD) (t : Fin cfg1.N) :
    (dat1 V c).flushed 9 t = ((cfg1.win 9).blk t).view.read (Elt Ideal)
      (score (V c main_v47) (V c main_v32) (V c main_v48) (V c main_v50) (V c main_v49) (V c main_v51) (V c main_v52)
        (V c main_v53) (V c main_v54)) := by
  show (cfg1.win 9).cut (grid1.coords t) ((dat1 V c).after 9 t) = _
  rw [after1_9]
  unfold out1_9
  rw [View.canon_unit_zero origin]
  simp only [View.ld_unit_zero (S := S5000x128) origin, View.ld_unit_zero (S := S128x128) origin,
    View.ld_unit_zero (S := S1x128) origin, View.ld_unit_zero (S := S128x1) origin, View.ld_unit_zero (S := S1x1) origin]
  obtain ⟨a0, a1, x0, x1, -, -, -, -, -, -, -, -, -, -, -, -, -, -, o0, o1⟩ := index_facts t
  funext j
  refine tile_entry (V c main_v47) (V c main_v32) (V c main_v48) (V c main_v50) (V c main_v49) (V c main_v51) (V c main_v52)
    (V c main_v53) (V c main_v54)
    (iblk1 V c 0 t) (iblk1 V c 1 t) (iblk1 V c 2 t) (iblk1 V c 4 t) (iblk1 V c 3 t) (iblk1 V c 5 t) (iblk1 V c 6 t)
    (iblk1 V c 7 t) (iblk1 V c 8 t)
    j (((cfg1.win 9).blk t).view.emb j) ?_ ?_ (wl_block V c t) (wr_block V c t) (bl_block V c t) (wo_block V c t)
    (bo_block V c t) (wp_block V c t) (bp_block V c t)
  · intro k
    show V c main_v47 (((cfg1.win 0).blk t).view.emb (ix2 (j 0) k)) = V c main_v47 (ix2 ((((cfg1.win 9).blk t).view.emb j) 0) k)
    refine congrArg _ (funext fun a => Fin.ext ?_)
    match a with
    | ⟨0, _⟩ => show win1_0.index t (0 : Fin 2) * 5000 + 1 * (j 0).val = win1_9.index t (0 : Fin 2) * 5000 + 1 * (j 0).val; omega
    | ⟨1, _⟩ => show win1_0.index t (1 : Fin 2) * 128 + 1 * k.val = k.val; omega
  · intro k
    show V c main_v32 (((cfg1.win 1).blk t).view.emb (ix2 (j 0) k)) = V c main_v32 (ix2 ((((cfg1.win 9).blk t).view.emb j) 0) k)
    refine congrArg _ (funext fun a => Fin.ext ?_)
    match a with
    | ⟨0, _⟩ => show win1_1.index t (0 : Fin 2) * 5000 + 1 * (j 0).val = win1_9.index t (0 : Fin 2) * 5000 + 1 * (j 0).val; omega
    | ⟨1, _⟩ => show win1_1.index t (1 : Fin 2) * 128 + 1 * k.val = k.val; omega

/-- An index of the output array is in point t's block iff each coordinate is in the block's range on its axis. -/
theorem mem_tile (t : Fin cfg1.N) (i : S50000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v55).slice (win1_9.rect t)).set ↔ _
  rw [View.set_slice_whole, Rect.mem_set_unit]
  exact Iff.rfl

/-- Every block index of the output is some point's. -/
theorem tile_onto : ∀ q0 : Fin 10, ∃ t : Fin cfg1.N, win1_9.index t = ![q0.val, 0] :=
  (by decide +kernel : ∀ q0 : Fin 10, ∃ t : Fin grid1.N, win1_9.index t = ![q0.val, 0])

/-- The ten row tiles cover the array: row r lies in tile r / 5000. -/
theorem covered (i : S50000x1.Idx) :
    ∃ t : Fin cfg1.N, (cfg1.win 9).flush t = true ∧ i ∈ ((cfg1.win 9).blk t).view.set := by
  have hi0 : (i 0).val < 50000 := (i 0).isLt
  have hi1 : (i 1).val < 1 := (i 1).isLt
  obtain ⟨t, ht⟩ := tile_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_tile]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 1 ≤ (i 1).val ∧ (i 1).val < win1_9.index t (1 : Fin 2) * 1 + 1; omega

/-- THE OUTPUT ARRAY after the call: `score` of the arrays the call is entered with. -/
theorem final (c : Dev nD) :
    (dat1 V c).arrAt 9 cfg1.N
      = score (V c main_v47) (V c main_v32) (V c main_v48) (V c main_v50) (V c main_v49) (V c main_v51) (V c main_v52)
          (V c main_v53) (V c main_v54) :=
  (dat1 V c).arrAt_eq_of_cover 9 _ (fun t _ => flushed_eq V c t) covered

end Cert.KernelIdeal.HeadTiles

end
-- ==== Proof.RefLayers.lean ====
/-
  The reference's two layers, read entry by entry.

  The reference computes, over all 50000 nodes at once, the products of an array with a transposed weight, the broadcast
  biases, the sums and the maxima with zero.  Read at an index, its first layer's result is convolution-then-readout
  (`LayerSpec.hidden`) of its aggregated array, its node array, the transposed weights and the bias rows; and its last
  sum before the final reshape is `LayerSpec.score` of the second aggregated array, the first layer's result, and the
  second set of weights and biases.  A product at (p, q) is the sum over k of left (p, k) · right (k, q); a bias row
  [1, b] broadcast down the rows reads its one row; the maximum with the broadcast zero is the maximum with zero.
  The aggregated arrays and the transposed weights stay as the stage arrays they are: nothing here looks inside them.
-/
import proofs.«112780_j37958920962331_1_alg».proof.Proof.Gen.ReferenceIdeal.Read
import proofs.«112780_j37958920962331_1_alg».proof.Proof.LayerSpec
import Idealize.ShloMosaic.Lib.ValueIdx
import Idealize.ShloMosaic.PureOps.Ideal

noncomputable section

namespace Cert.ReferenceIdeal.Layers

open Cert.ReferenceIdeal Cert.ReferenceIdeal.Read Idealize.ShloMosaic Idealize.ShloMosaic.ValueIdx Cert.LayerSpec

/-! ## The operand indices of each product and bias broadcast, at an output index (p, q) -/

theorem l_v28 (p : Fin 50000) (q : Fin 128) (k : Fin 64) : lidx_main_v28 (ix2 p q) k = ix2 p k :=
  funext fun a => Fin.ext (by match a with | ⟨0, _⟩ => rfl | ⟨1, _⟩ => rfl)
theorem r_v28 (p : Fin 50000) (q : Fin 128) (k : Fin 64) : ridx_main_v28 (ix2 p q) k = ix2 k q :=
  funext fun a => Fin.ext (by match a with | ⟨0, _⟩ => rfl | ⟨1, _⟩ => rfl)
theorem l_v33 (p : Fin 50000) (q : Fin 128) (k : Fin 64) : lidx_main_v33 (ix2 p q) k = ix2 p k :=
  funext fun a => Fin.ext (by match a with | ⟨0, _⟩ => rfl | ⟨1, _⟩ => rfl)
theorem r_v33 (p : Fin 50000) (q : Fin 128) (k : Fin 64) : ridx_main_v33 (ix2 p q) k = ix2 k q :=
  funext fun a => Fin.ext (by match a with | ⟨0, _⟩ => rfl | ⟨1, _⟩ => rfl)
theorem l_v37 (p : Fin 50000) (q : Fin 128) (k : Fin 128) : lidx_main_v37 (ix2 p q) k = ix2 p k :=
  funext fun a => Fin.ext (by match a with | ⟨0, _⟩ => rfl | ⟨1, _⟩ => rfl)
theorem r_v37 (p : Fin 50000) (q : Fin 128) (k : Fin 128) : ridx_main_v37 (ix2 p q) k = ix2 k q :=
  funext fun a => Fin.ext (by match a with | ⟨0, _⟩ => rfl | ⟨1, _⟩ => rfl)
theorem l_v58 (p : Fin 50000) (q : Fin 128) (k : Fin 128) : lidx_main_v58 (ix2 p q) k = ix2 p k :=
  funext fun a => Fin.ext (by match a with | ⟨0, _⟩ => rfl | ⟨1, _⟩ => rfl)
theorem r_v58 (p : Fin 50000) (q : Fin 128) (k : Fin 128) : ridx_main_v58 (ix2 p q) k = ix2 k q :=
  funext fun a => Fin.ext (by match a with | ⟨0, _⟩ => rfl | ⟨1, _⟩ => rfl)
theorem l_v63 (p : Fin 50000) (q : Fin 128) (k : Fin 128) : lidx_main_v63 (ix2 p q) k = ix2 p k :=
  funext fun a => Fin.ext (by match a with | ⟨0, _⟩ => rfl | ⟨1, _⟩ => rfl)
theorem r_v63 (p : Fin 50000) (q : Fin 128) (k : Fin 128) : ridx_main_v63 (ix2 p q) k = ix2 k q :=
  funext fun a => Fin.ext (by match a with | ⟨0, _⟩ => rfl | ⟨1, _⟩ => rfl)
theorem l_v67 (p : Fin 50000) (q : Fin 128) (k : Fin 128) : lidx_main_v67 (ix2 p q) k = ix2 p k :=
  funext fun a => Fin.ext (by match a with | ⟨0, _⟩ => rfl | ⟨1, _⟩ => rfl)
theorem r_v67 (p : Fin 50000) (q : Fin 128) (k : Fin 128) : ridx_main_v67 (ix2 p q) k = ix2 k q :=
  funext fun a => Fin.ext (by match a with | ⟨0, _⟩ => rfl | ⟨1, _⟩ => rfl)
theorem l_v73 (p : Fin 50000) (q : Fin 1) (k : Fin 128) : lidx_main_v73 (ix2 p q) k = ix2 p k :=
  funext fun a => Fin.ext (by match a with | ⟨0, _⟩ => rfl | ⟨1, _⟩ => rfl)
theorem r_v73 (p : Fin 50000) (q : Fin 1) (k : Fin 128) : ridx_main_v73 (ix2 p q) k = ix2 k q :=
  funext fun a => Fin.ext (by match a with | ⟨0, _⟩ => rfl | ⟨1, _⟩ => rfl)
theorem b_v30 (p : Fin 50000) (q : Fin 128) : idx_main_v30 (ix2 p q) = ix2 (0 : Fin 1) q :=
  funext fun a => Fin.ext (by match a with | ⟨0, _⟩ => rfl | ⟨1, _⟩ => rfl)
theorem b_v39 (p : Fin 50000) (q : Fin 128) : idx_main_v39 (ix2 p q) = ix2 (0 : Fin 1) q :=
  funext fun a => Fin.ext (by match a with | ⟨0, _⟩ => rfl | ⟨1, _⟩ => rfl)
theorem b_v60 (p : Fin 50000) (q : Fin 128) : idx_main_v60 (ix2 p q) = ix2 (0 : Fin 1) q :=
  funext fun a => Fin.ext (by match a with | ⟨0, _⟩ => rfl | ⟨1, _⟩ => rfl)
theorem b_v69 (p : Fin 50000) (q : Fin 128) : idx_main_v69 (ix2 p q) = ix2 (0 : Fin 1) q :=
  funext fun a => Fin.ext (by match a with | ⟨0, _⟩ => rfl | ⟨1, _⟩ => rfl)
theorem b_v75 (p : Fin 50000) : idx_main_v75 (ix2 p (0 : Fin 1)) = ix2 (0 : Fin 1) (0 : Fin 1) :=
  funext fun a => Fin.ext (by match a with | ⟨0, _⟩ => rfl | ⟨1, _⟩ => rfl)

variable (x0 : (⟨S50000x1x64, .f32⟩ : BufTy).Contents (Elt Ideal))
  (x1 : (⟨S2x800000, .i32⟩ : BufTy).Contents (Elt Ideal))
  (x2 : (⟨S800000, .f32⟩ : BufTy).Contents (Elt Ideal))
  (x3 : (⟨S128x64, .f32⟩ : BufTy).Contents (Elt Ideal))
  (x4 : (⟨S128, .f32⟩ : BufTy).Contents (Elt Ideal))
  (x5 : (⟨S128x64, .f32⟩ : BufTy).Contents (Elt Ideal))
  (x6 : (⟨S128x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))
  (x11 : (⟨S128x128, .f32⟩ : BufTy).Contents (Elt Ideal))
  (x12 : (⟨S128, .f32⟩ : BufTy).Contents (Elt Ideal))
  (x13 : (⟨S1x128, .f32⟩ : BufTy).Contents (Elt Ideal))
  (x14 : (⟨S1, .f32⟩ : BufTy).Contents (Elt Ideal))

/-! ## The first layer -/

/-- The convolution's unit j of node p, as the reference computes it. -/
theorem conv0_at (p : Fin 50000) (j : Fin 128) :
    val_main_v35 (F := Ideal) x0 x1 x2 x3 x4 x5 (ix2 p j) = convAt (val_main_v26 (F := Ideal) x0 x1 x2) (val_main_v11 (F := Ideal) x0) (val_main_v27 (F := Ideal) x3) (val_main_v32 (F := Ideal) x5) (val_main_v29 (F := Ideal) x4) p j := by
  rw [val_main_v35_apply, val_main_v34_apply, val_main_v33_apply, val_main_v31_apply, val_main_v30_apply, val_main_v28_apply, val_main_call0_v0_apply, val_main_call0_cst_apply, b_v30]
  unfold convAt
  simp only [Ideal.maximumf_def, Ideal.addf_def, Ideal.ofBits_def]
  refine congrArg₂ max (congrArg₂ (· + ·) (congrArg₂ (· + ·) (Finset.sum_congr rfl fun k _ => ?_) rfl)
    (Finset.sum_congr rfl fun k _ => ?_)) rfl
  · rw [l_v28, r_v28]
  · rw [l_v33, r_v33]

/-- THE FIRST LAYER: the reference's first hidden array is `hidden` of its first aggregated array and its node array. -/
theorem hidden_eq :
    val_main_v41 (F := Ideal) x0 x1 x2 x3 x4 x5 x6 x7
      = hidden (val_main_v26 (F := Ideal) x0 x1 x2) (val_main_v11 (F := Ideal) x0) (val_main_v27 (F := Ideal) x3) (val_main_v32 (F := Ideal) x5)
          (val_main_v29 (F := Ideal) x4) (val_main_v36 (F := Ideal) x6) (val_main_v38 (F := Ideal) x7) := by
  funext i
  obtain ⟨p, q, rfl⟩ : ∃ (p : Fin 50000) (q : Fin 128), i = ix2 p q := ⟨i 0, i 1, eq_ix2 i⟩
  rw [hidden_apply]
  unfold hiddenAt readoutAt
  rw [val_main_v41_apply, val_main_v40_apply, val_main_v39_apply, val_main_v37_apply, val_main_call1_v0_apply, val_main_call1_cst_apply, b_v39]
  simp only [Ideal.maximumf_def, Ideal.addf_def, Ideal.ofBits_def]
  refine congrArg₂ max (congrArg₂ (· + ·) (Finset.sum_congr rfl fun k _ => ?_) rfl) rfl
  rw [l_v37, r_v37, conv0_at]

/-! ## The second layer and the head -/

/-- The convolution's unit j of node p, as the reference computes it. -/
theorem conv1_at (p : Fin 50000) (j : Fin 128) :
    val_main_v65 (F := Ideal) x0 x1 x2 x3 x4 x5 x6 x7 x8 x9 x10 (ix2 p j) = convAt (val_main_v56 (F := Ideal) x0 x1 x2 x3 x4 x5 x6 x7) (val_main_v41 (F := Ideal) x0 x1 x2 x3 x4 x5 x6 x7) (val_main_v57 (F := Ideal) x8) (val_main_v62 (F := Ideal) x10) (val_main_v59 (F := Ideal) x9) p j := by
  rw [val_main_v65_apply, val_main_v64_apply, val_main_v63_apply, val_main_v61_apply, val_main_v60_apply, val_main_v58_apply, val_main_call2_v0_apply, val_main_call2_cst_apply, b_v60]
  unfold convAt
  simp only [Ideal.maximumf_def, Ideal.addf_def, Ideal.ofBits_def]
  refine congrArg₂ max (congrArg₂ (· + ·) (congrArg₂ (· + ·) (Finset.sum_congr rfl fun k _ => ?_) rfl)
    (Finset.sum_congr rfl fun k _ => ?_)) rfl
  · rw [l_v58, r_v58]
  · rw [l_v63, r_v63]

/-- The second layer's hidden unit q of node p, as the reference computes it. -/
theorem hidden1_at (p : Fin 50000) (q : Fin 128) :
    val_main_v71 (F := Ideal) x0 x1 x2 x3 x4 x5 x6 x7 x8 x9 x10 x11 x12 (ix2 p q)
      = hiddenAt (val_main_v56 (F := Ideal) x0 x1 x2 x3 x4 x5 x6 x7) (val_main_v41 (F := Ideal) x0 x1 x2 x3 x4 x5 x6 x7) (val_main_v57 (F := Ideal) x8) (val_main_v62 (F := Ideal) x10)
          (val_main_v59 (F := Ideal) x9) (val_main_v66 (F := Ideal) x11) (val_main_v68 (F := Ideal) x12) p q := by
  unfold hiddenAt readoutAt
  rw [val_main_v71_apply, val_main_v70_apply, val_main_v69_apply, val_main_v67_apply, val_main_call3_v0_apply, val_main_call3_cst_apply, b_v69]
  simp only [Ideal.maximumf_def, Ideal.addf_def, Ideal.ofBits_def]
  refine congrArg₂ max (congrArg₂ (· + ·) (Finset.sum_congr rfl fun k _ => ?_) rfl) rfl
  rw [l_v67, r_v67, conv1_at]

/-- THE SECOND LAYER AND THE HEAD: the reference's last sum is `score` of its second aggregated array and its first
    hidden array. -/
theorem score_eq :
    val_main_v76 (F := Ideal) x0 x1 x2 x3 x4 x5 x6 x7 x8 x9 x10 x11 x12 x13 x14
      = score (val_main_v56 (F := Ideal) x0 x1 x2 x3 x4 x5 x6 x7) (val_main_v41 (F := Ideal) x0 x1 x2 x3 x4 x5 x6 x7) (val_main_v57 (F := Ideal) x8) (val_main_v62 (F := Ideal) x10)
          (val_main_v59 (F := Ideal) x9) (val_main_v66 (F := Ideal) x11) (val_main_v68 (F := Ideal) x12) (val_main_v72 (F := Ideal) x13) (val_main_v74 (F := Ideal) x14) := by
  funext i
  obtain ⟨p, z, rfl⟩ : ∃ (p : Fin 50000) (z : Fin 1), i = ix2 p z := ⟨i 0, i 1, eq_ix2 i⟩
  obtain rfl : z = 0 := Subsingleton.elim _ _
  rw [score_apply]
  unfold scoreAt
  rw [val_main_v76_apply, val_main_v75_apply, val_main_v73_apply, b_v75]
  simp only [Ideal.addf_def]
  refine congrArg₂ (· + ·) (Finset.sum_congr rfl fun k _ => ?_) rfl
  rw [l_v73, r_v73, hidden1_at]

end Cert.ReferenceIdeal.Layers

end
-- ==== Proof.Boundary.lean ====
/-
  The kernel program's arrays at the boundaries between its stretches, as functions of the launch arguments.

  Each array is named by the reference's stage function that computes the same thing from the same arguments:
  the host operations before the first call are, operation for operation, the reference's first operations (slices of
  the edge list, the in-degree counts and their maximum with one, the gather of source rows, their weighting, the
  scatter-add into destination rows and the division by the counts; then the transposed weights), so what they leave
  is those stage functions by unfolding.  A bias is reshaped [b] → [1, b] here and broadcast [b] → [1, b] there: the same
  row, entry by entry.  The first call leaves `hidden` of its entry arrays, which is the reference's first hidden
  array; the operations between the calls repeat the aggregation on that array; the second call leaves `score` of its
  entry arrays, which is the reference's last sum; the closing reshape is the reference's.
-/
import proofs.«112780_j37958920962331_1_alg».proof.Proof.Patched.KernelIdeal.Frame
import proofs.«112780_j37958920962331_1_alg».proof.Proof.Gen.ReferenceIdeal.Read
import proofs.«112780_j37958920962331_1_alg».proof.Proof.ConvTiles
import proofs.«112780_j37958920962331_1_alg».proof.Proof.HeadTiles
import proofs.«112780_j37958920962331_1_alg».proof.Proof.RefLayers
import Idealize.ShloMosaic.Lib.ValueIdx
import Idealize.ShloMosaic.Lib.ValueLayout
import Idealize.ShloMosaic.Lib.StableHlo.Run

set_option maxRecDepth 16384

noncomputable section

namespace Cert.KernelIdeal.Boundary

open Cert.KernelIdeal Cert.KernelIdeal.Gen Cert.KernelIdeal.GenP
open Idealize.ShloMosaic Idealize.ShloMosaic.TcCoe Idealize.ShloMosaic.ValueIdx Idealize.ShloMosaic.StableHlo
open Idealize.SL.Sem Cert.LayerSpec

/-! ## A bias row, reshaped or broadcast -/

/-- A vector [b] reshaped to the row [1, b] is the vector broadcast to that row. -/
theorem row128 (x : (⟨S128, .f32⟩ : BufTy).Contents (Elt Ideal)) :
    (shapeCast S1x128 x shapeCasts_S128_S1x128 : S1x128.Idx → EReal) = Cert.ReferenceIdeal.Read.val_main_v29 (F := Ideal) x := by
  funext i
  obtain ⟨u, j, rfl⟩ : ∃ (u : Fin 1) (j : Fin 128), i = ix2 u j := ⟨i 0, i 1, eq_ix2 i⟩
  rw [Cert.ReferenceIdeal.Read.val_main_v29_apply]
  refine (shapeCast_a_1a_apply x shapeCasts_S128_S1x128 u j).trans (congrArg x ?_)
  exact funext fun a => Fin.ext (by match a with | ⟨0, _⟩ => rfl)

/-- A vector [1] reshaped to [1, 1] is the vector broadcast to [1, 1]. -/
theorem row1 (x : (⟨S1, .f32⟩ : BufTy).Contents (Elt Ideal)) :
    (shapeCast S1x1 x shapeCasts_S1_S1x1 : S1x1.Idx → EReal) = Cert.ReferenceIdeal.Read.val_main_v74 (F := Ideal) x := by
  funext i
  obtain ⟨u, j, rfl⟩ : ∃ (u : Fin 1) (j : Fin 1), i = ix2 u j := ⟨i 0, i 1, eq_ix2 i⟩
  rw [Cert.ReferenceIdeal.Read.val_main_v74_apply]
  refine (shapeCast_a_1a_apply x shapeCasts_S1_S1x1 u j).trans (congrArg x ?_)
  have hj : j.val = 0 := by have := j.isLt; omega
  exact funext fun a => Fin.ext (by match a with | ⟨0, _⟩ => exact hj)

variable (m : (ℓ : Loc nD τ sig) → Buf (Elt Ideal) ℓ) (ρ : Dev nD → PrngReg)

/-! ## Before the first call: its entry arrays -/

theorem entry0_agg (c : Dev nD) : W1 m ρ c (Proc.devRef .tc main_v26) = Cert.ReferenceIdeal.Read.val_main_v26 (F := Ideal) (m ((c : Thread nD τ).loc main_arg0)) (m ((c : Thread nD τ).loc main_arg1)) (m ((c : Thread nD τ).loc main_arg2)) := by
  show StableHlo.after hostOps0 (W0 m ρ c) (Proc.devRef .tc main_v26) = _
  after_results_simp
  rfl
theorem entry0_x (c : Dev nD) : W1 m ρ c (Proc.devRef .tc main_v11) = Cert.ReferenceIdeal.Read.val_main_v11 (F := Ideal) (m ((c : Thread nD τ).loc main_arg0)) := by
  show StableHlo.after hostOps0 (W0 m ρ c) (Proc.devRef .tc main_v11) = _
  after_results_simp
  rfl
theorem entry0_wl (c : Dev nD) : W1 m ρ c (Proc.devRef .tc main_v27) = Cert.ReferenceIdeal.Read.val_main_v27 (F := Ideal) (m ((c : Thread nD τ).loc main_arg3)) := by
  show StableHlo.after hostOps0 (W0 m ρ c) (Proc.devRef .tc main_v27) = _
  after_results_simp
  rfl
theorem entry0_bl (c : Dev nD) : W1 m ρ c (Proc.devRef .tc main_v28) = Cert.ReferenceIdeal.Read.val_main_v29 (F := Ideal) (m ((c : Thread nD τ).loc main_arg4)) := by
  show StableHlo.after hostOps0 (W0 m ρ c) (Proc.devRef .tc main_v28) = _
  after_results_simp
  exact row128 _
theorem entry0_wr (c : Dev nD) : W1 m ρ c (Proc.devRef .tc main_v29) = Cert.ReferenceIdeal.Read.val_main_v32 (F := Ideal) (m ((c : Thread nD τ).loc main_arg5)) := by
  show StableHlo.after hostOps0 (W0 m ρ c) (Proc.devRef .tc main_v29) = _
  after_results_simp
  rfl
theorem entry0_wo (c : Dev nD) : W1 m ρ c (Proc.devRef .tc main_v30) = Cert.ReferenceIdeal.Read.val_main_v36 (F := Ideal) (m ((c : Thread nD τ).loc main_arg6)) := by
  show StableHlo.after hostOps0 (W0 m ρ c) (Proc.devRef .tc main_v30) = _
  after_results_simp
  rfl
theorem entry0_bo (c : Dev nD) : W1 m ρ c (Proc.devRef .tc main_v31) = Cert.ReferenceIdeal.Read.val_main_v38 (F := Ideal) (m ((c : Thread nD τ).loc main_arg7)) := by
  show StableHlo.after hostOps0 (W0 m ρ c) (Proc.devRef .tc main_v31) = _
  after_results_simp
  exact (row128 _).trans rfl

/-! ## After the first call: its output is the reference's first hidden array -/

theorem hidden0 (c : Dev nD) : W2 m ρ c (Proc.devRef .tc main_v32) = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show W2 m ρ c (Proc.devRef .tc (Pipeline.arrRef spec0 7)) = _
  refine (W2_arr m ρ c 7).trans ((ConvTiles.final (V1 m ρ) c).trans ?_)
  show hidden (W1 m ρ c (Proc.devRef .tc main_v26)) (W1 m ρ c (Proc.devRef .tc main_v11)) (W1 m ρ c (Proc.devRef .tc main_v27))
      (W1 m ρ c (Proc.devRef .tc main_v29)) (W1 m ρ c (Proc.devRef .tc main_v28)) (W1 m ρ c (Proc.devRef .tc main_v30))
      (W1 m ρ c (Proc.devRef .tc main_v31)) = _
  rw [entry0_agg m ρ c, entry0_x m ρ c, entry0_wl m ρ c, entry0_wr m ρ c, entry0_bl m ρ c, entry0_wo m ρ c, entry0_bo m ρ c]
  exact (Cert.ReferenceIdeal.Layers.hidden_eq _ _ _ _ _ _ _ _).symm

/-! ## What the operations between the calls read: buffers the first call does not write -/

theorem mid_src (c : Dev nD) : W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp
  rfl
theorem mid_dst (c : Dev nD) : W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp
  rfl
theorem mid_den (c : Dev nD) : W2 m ρ c (Proc.devRef .tc main_v10) = Cert.ReferenceIdeal.Read.val_main_v10 (F := Ideal) (m ((c : Thread nD τ).loc main_arg1)) := by
  refine (W2_of_ne m ρ c main_v10 (by decide)).trans ?_
  show StableHlo.after hostOps0 (W0 m ρ c) (Proc.devRef .tc main_v10) = _
  after_results_simp
  rfl
theorem mid_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp
theorem mid_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp
theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp
theorem mid_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp
theorem mid_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp
theorem mid_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results_simp
theorem mid_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results_simp
theorem mid_arg14 (c : Dev nD) : W2 m ρ c (Proc.devRef .tc main_arg14) = m ((c : Thread nD τ).loc main_arg14) := by
  refine (W2_of_ne m ρ c main_arg14 (by decide)).trans ?_
  show StableHlo.after hostOps0 (W0 m ρ c) (Proc.devRef .tc main_arg14) = _
  after_results_simp

/-! ## Before the second call: its entry arrays -/

theorem entry1_agg (c : Dev nD) : W3 m ρ c (Proc.devRef .tc main_v47) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v47) = _
  after_results_simp
  rw [hidden0 m ρ c, mid_src m ρ c, mid_dst m ρ c, mid_den m ρ c, mid_arg2 m ρ c]
  rfl
theorem entry1_h (c : Dev nD) : W3 m ρ c (Proc.devRef .tc main_v32) = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v32) = _
  after_results_simp
  exact hidden0 m ρ c
theorem entry1_wl (c : Dev nD) : W3 m ρ c (Proc.devRef .tc main_v48) = Cert.ReferenceIdeal.Read.val_main_v57 (F := Ideal) (m ((c : Thread nD τ).loc main_arg8)) := by
  show StableHlo.after hostOps1 (W2 m ρ c) (Proc.devRef .tc main_v48) = _
  after_results_simp
  rw [mid_arg8 m ρ c]
  rfl
theorem entry1_bl (c : Dev nD) : W3 m ρ c (Proc.devRef .tc main_v49) = Cert.ReferenceIdeal.Read.val_main_v59 (F := Ideal) (m ((c : Thread nD τ).loc main_arg9)) := by
  show StableHlo.after hostOps1 (W2 m ρ c) (Proc.devRef .tc main_v49) = _
  after_results_simp
  rw [mid_arg9 m ρ c]
  exact (row128 _).trans rfl
theorem entry1_wr (c : Dev nD) : W3 m ρ c (Proc.devRef .tc main_v50) = Cert.ReferenceIdeal.Read.val_main_v62 (F := Ideal) (m ((c : Thread nD τ).loc main_arg10)) := by
  show StableHlo.after hostOps1 (W2 m ρ c) (Proc.devRef .tc main_v50) = _
  after_results_simp
  rw [mid_arg10 m ρ c]
  rfl
theorem entry1_wo (c : Dev nD) : W3 m ρ c (Proc.devRef .tc main_v51) = Cert.ReferenceIdeal.Read.val_main_v66 (F := Ideal) (m ((c : Thread nD τ).loc main_arg11)) := by
  show StableHlo.after hostOps1 (W2 m ρ c) (Proc.devRef .tc main_v51) = _
  after_results_simp
  rw [mid_arg11 m ρ c]
  rfl
theorem entry1_bo (c : Dev nD) : W3 m ρ c (Proc.devRef .tc main_v52) = Cert.ReferenceIdeal.Read.val_main_v68 (F := Ideal) (m ((c : Thread nD τ).loc main_arg12)) := by
  show StableHlo.after hostOps1 (W2 m ρ c) (Proc.devRef .tc main_v52) = _
  after_results_simp
  rw [mid_arg12 m ρ c]
  exact (row128 _).trans rfl
theorem entry1_wp (c : Dev nD) : W3 m ρ c (Proc.devRef .tc main_v53) = Cert.ReferenceIdeal.Read.val_main_v72 (F := Ideal) (m ((c : Thread nD τ).loc main_arg13)) := by
  show StableHlo.after hostOps1 (W2 m ρ c) (Proc.devRef .tc main_v53) = _
  after_results_simp
  rw [mid_arg13 m ρ c]
  rfl
theorem entry1_bp (c : Dev nD) : W3 m ρ c (Proc.devRef .tc main_v54) = Cert.ReferenceIdeal.Read.val_main_v74 (F := Ideal) (m ((c : Thread nD τ).loc main_arg14)) := by
  show StableHlo.after hostOps1 (W2 m ρ c) (Proc.devRef .tc main_v54) = _
  after_results_simp
  rw [mid_arg14 m ρ c]
  exact row1 _

/-! ## After the second call, and the result -/

theorem score1 (c : Dev nD) : W4 m ρ c (Proc.devRef .tc main_v55) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show W4 m ρ c (Proc.devRef .tc (Pipeline.arrRef spec1 9)) = _
  refine (W4_arr m ρ c 9).trans ((HeadTiles.final (V3 m ρ) c).trans ?_)
  show score (W3 m ρ c (Proc.devRef .tc main_v47)) (W3 m ρ c (Proc.devRef .tc main_v32)) (W3 m ρ c (Proc.devRef .tc main_v48))
      (W3 m ρ c (Proc.devRef .tc main_v50)) (W3 m ρ c (Proc.devRef .tc main_v49)) (W3 m ρ c (Proc.devRef .tc main_v51))
      (W3 m ρ c (Proc.devRef .tc main_v52)) (W3 m ρ c (Proc.devRef .tc main_v53)) (W3 m ρ c (Proc.devRef .tc main_v54)) = _
  rw [entry1_agg m ρ c, entry1_h m ρ c, entry1_wl m ρ c, entry1_wr m ρ c, entry1_bl m ρ c, entry1_wo m ρ c, entry1_bo m ρ c,
    entry1_wp m ρ c, entry1_bp m ρ c]
  exact (Cert.ReferenceIdeal.Layers.score_eq _ _ _ _ _ _ _ _ _ _ _ _ _ _ _).symm

/-- THE RESULT: the kernel program's result array is the reference's last stage function of the launch arguments. -/
theorem result (c : Dev nD) : W5 m ρ c (Proc.devRef .tc main_v56) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps2 (W4 m ρ c) (Proc.devRef .tc main_v56) = _
  after_results_simp
  rw [score1 m ρ c]
  rfl

end Cert.KernelIdeal.Boundary

end
-- ==== Proof.lean ====
/-
  A two-layer graph convolution with readouts and a prediction head: the row-tiled kernel program against its whole-array
  reference, equal as extended reals.

  Both programs aggregate, for every node, the weighted rows of its in-neighbours divided by its in-degree (at least
  one), with the same host operations in the same order.  On that aggregate `a` and the node array `x` a layer computes
  max (max ((a · Wlᵀ + bl) + x · Wrᵀ) 0 · Woᵀ + bo) 0; the second layer does the same on the first layer's result and
  ends in one more product with a bias.  The reference does this on all 50000 rows at once; the kernel program in two
  calls over ten tiles of 5000 rows, with the weights transposed beforehand.  Every entry of a layer's result depends on
  its own row of `a` and `x` only, and each product's sum runs over the same index in the same order on both sides, so a
  tile's result is that block of rows of the whole result and the ten tiles cover the array (`ConvTiles`, `HeadTiles`
  over `LayerSpec`).  Read at an index the reference's layers are the same formulas (`RefLayers`), and the arrays between
  the stretches of the kernel program are the reference's stage arrays of the same arguments (`Boundary`).  No law of
  arithmetic beyond reading sums and products entry by entry is used, so the precondition is never opened.

  The three frames are the programs' runs with the results dropped; the idealization rewrote no operation, so there is
  nothing to preserve.
-/
import proofs.«112780_j37958920962331_1_alg».proof.Defs
import proofs.«112780_j37958920962331_1_alg».proof.Proof.Gen.Kernel
import proofs.«112780_j37958920962331_1_alg».proof.Proof.Gen.KernelIdeal
import proofs.«112780_j37958920962331_1_alg».proof.Proof.Gen.ReferenceIdeal
import proofs.«112780_j37958920962331_1_alg».proof.Proof.Gen.Pre_finite_inputs
import proofs.«112780_j37958920962331_1_alg».proof.Proof.Gen.ReferenceIdeal.Run
import proofs.«112780_j37958920962331_1_alg».proof.Proof.Gen.ReferenceIdeal.Read
import proofs.«112780_j37958920962331_1_alg».proof.Proof.Patched.Kernel.Frame
import proofs.«112780_j37958920962331_1_alg».proof.Proof.Patched.KernelIdeal.Frame
import proofs.«112780_j37958920962331_1_alg».proof.Proof.KernelRun
import proofs.«112780_j37958920962331_1_alg».proof.Proof.Boundary
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.GenP.frame m ρ

/-- The idealized kernel program runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference runs and leaves its arguments as launched: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's last stage function of the launch arguments in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Boundary.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v77_eq]
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
